-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x512 : Shape := ⟨2, ![4096, 512]⟩
abbrev S512x512 : Shape := ⟨2, ![512, 512]⟩
abbrev S512 : Shape := ⟨1, ![512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x512 .f32) (main_arg3 : FVec F S512x512 .f32) (main_arg4 : FVec F S512 .f32) (main_arg5 : FVec F S512x512 .f32) (main_arg6 : FVec F S512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4096x4096 : Shape := ⟨2, ![4096, 4096]⟩
abbrev S4096x512 : Shape := ⟨2, ![4096, 512]⟩
abbrev S512x512 : Shape := ⟨2, ![512, 512]⟩
abbrev S512 : Shape := ⟨1, ![512]⟩
abbrev S1x512 : Shape := ⟨2, ![1, 512]⟩
abbrev S512x4096 : Shape := ⟨2, ![512, 4096]⟩

abbrev nBuf : Space → Nat
  | .hbm => 14
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S512x512, .f32⟩
  | .hbm, ⟨10, _⟩ => ⟨S512x512, .f32⟩
  | .hbm, ⟨11, _⟩ => ⟨S4096x512, .bf16⟩
  | .hbm, ⟨12, _⟩ => ⟨S4096x512, .bf16⟩
  | .hbm, ⟨13, _⟩ => ⟨S4096x512, .f32⟩
  | .local _ .vmem, ⟨0, _⟩ => ⟨S4096x512, .f32⟩
  | .local _ .vmem, ⟨1, _⟩ => ⟨S512x512, .f32⟩
  | .local _ .vmem, ⟨2, _⟩ => ⟨S512x512, .f32⟩
  | .local _ .vmem, ⟨3, _⟩ => ⟨S4096x512, .bf16⟩
  | .local _ .vmem, ⟨4, _⟩ => ⟨S4096x512, .bf16⟩
  | .local _ .vmem, ⟨5, _⟩ => ⟨S512x4096, .f32⟩
  | .local _ .vmem, ⟨6, _⟩ => ⟨S512x4096, .f32⟩
  | .local _ .vmem, ⟨7, _⟩ => ⟨S512x4096, .f32⟩
  | .local _ .vmem, ⟨8, _⟩ => ⟨S512x4096, .f32⟩
  | .local _ .vmem, ⟨9, _⟩ => ⟨S4096x512, .bf16⟩
  | .local _ .vmem, ⟨10, _⟩ => ⟨S4096x512, .bf16⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S512_S1x512 : S512.ShapeCasts S1x512
  transposes_S512x512_S512x512_1_0 : S512x512.Transposes [1, 0] S512x512
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S4096x512_S4096x512_0_0 : (Rect.unit (s := S4096x512) ![0, 0] S4096x512.size inb_S4096x512_S4096x512_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S4096x512_S512x512_S4096x512_1_0_0_1_n_n_wf : DotDims.WF S4096x512 S512x512 S4096x512 [1] [0] [0] [1] [] []
  dot_S512x4096_S4096x512_S512x512_1_0_0_1_n_n_wf : DotDims.WF S512x4096 S4096x512 S512x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x512.size a
  hwx1_2 : ∀ i : grid1.Coords, EltTy.bits .bf16 = 32 ∨ (Rect.block (s := S4096x512) S4096x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x512.size a
  hwx1_3 : ∀ i : grid1.Coords, EltTy.bits .bf16 = 32 ∨ (Rect.block (s := S4096x512) S4096x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v2) false false (stage0_1 0) (sem0_1 0) (Memref.isWhole_whole _) (hstage0_1 0)

abbrev win0_2 : Pipeline.Window sig grid0 :=
  Pipeline.Window.whole (Memref.whole main_v3) false false (stage0_2 0) (sem0_2 0) (Memref.isWhole_whole _) (hstage0_2 0)

abbrev win0_3 : Pipeline.Window sig grid0 :=
  Pipeline.Window.whole (Memref.whole main_v4_0) true false (stage0_3 0) (sem0_3 0) (Memref.isWhole_whole _) (hstage0_3 0)

abbrev win0_4 : Pipeline.Window sig grid0 :=
  Pipeline.Window.whole (Memref.whole main_v4_1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_0) S4096x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_1) S4096x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096x512 : Shape := ⟨2, ![4096, 512]⟩
abbrev S512x512 : Shape := ⟨2, ![512, 512]⟩
abbrev S512 : Shape := ⟨1, ![512]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S4096x4096, .f32⟩
  | .hbm, ⟨8, _⟩ => ⟨S4096x512, .f32⟩
  | .hbm, ⟨9, _⟩ => ⟨S4096x512, .f32⟩
  | .hbm, ⟨10, _⟩ => ⟨S512x512, .f32⟩
  | .hbm, ⟨11, _⟩ => ⟨S4096x512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S512x512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S4096x512, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x4096_S4096x512_S4096x512_1_0_0_1_n_n_wf : DotDims.WF S4096x4096 S4096x512 S4096x512 [1] [0] [0] [1] [] []
  dot_S4096x512_S512x512_S4096x512_1_0_0_1_n_n_wf : DotDims.WF S4096x512 S512x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.KernelRun.lean ====
/-
  The idealized kernel's run, with the RESULT kept.

  The program is a stretch of host operations (the bias sum and its reshape, the two weight transposes) followed by two
  kernel regions: the first computes the two feature products from the features and the transposed weights, the second
  multiplies the adjacency matrices' row blocks with them. Every weakly fair execution terminates, and at the end every
  unscoped buffer of a core holds what the fold of the three segments leaves there: the host stretch's results, then each
  region's arrays at what its write-backs leave. In particular the result buffer holds the second region's output
  array after its last write-back, and the arguments are as launched.
-/
import proofs.«136575_g52785148068368_cont_9to1_m_57_11_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final memory holds, at each
    unscoped buffer of each core, the contents the segments' fold leaves there. -/
theorem run_reads : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The result buffer ends at the second region's output array after its last write-back, and the seven arguments
    end as launched. -/
theorem run_result : θ_run defs (onTc (τ := τ) (main (F := F))) ⟨m, fun _ => 0, ρ⟩ (fun r => ∀ c : Dev nD,
      r.2.mem ((c.tc : Thread nD τ).loc main_v5) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v5 (by decide))).trans (W3_arr m ρ c 5),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)
    (run_reads m ρ)

end Cert.KernelIdeal.Run

end
-- ==== Proof.Finite.lean ====
/-
  The precondition, read: every entry of every argument array is a real number.

  The printed precondition is the conjunction, over the seven arguments, of "every entry's absolute value is below
  +infinity" (an `and`-reduction of an entrywise comparison against the +infinity word). On the extended reals
  |x| < +infinity excludes exactly the two infinities, so each entry is the coercion of a real.
-/
import proofs.«136575_g52785148068368_cont_9to1_m_57_11_alg».proof.Pre_finite_inputs
import Idealize.ShloMosaic.Lib.ReduceAll
import Idealize.ShloMosaic.Lib.ValueIdx
import Idealize.ShloMosaic.PureOps.Ideal.Laws

noncomputable section

namespace Cert.Gcn

open Idealize.ShloMosaic Cert.Pre_finite_inputs

/-- The scalar shape has one index. -/
instance subsingleton_scalar_idx : Subsingleton S_.Idx := ⟨fun a b => funext fun d => d.elim0⟩

/-- An extended real whose absolute value compares below the +infinity word is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  have h' : max x (-x) < ⊤ := by
    by_contra hc
    simp [Ideal.cmp, hc] at h
  induction x using EReal.rec with
  | bot => simp at h'
  | coe r => exact ⟨r, rfl⟩
  | top => simp at h'

variable [Cert.Pre_finite_inputs.Facts]
open Cert.Pre_finite_inputs.Facts

/-- One conjunct of the precondition: the `and` over all entries of "|x| < +infinity" gives a real at every index. -/
theorem entries_real {s : Shape} {axes : List (Fin s.rank)} (bc : S_.BroadcastsInDim s (![] : Fin 0 → Fin s.rank))
    (hr : s.ReducesTo axes S_) (x : FVec Ideal s .f32)
    (h : Host.reduce IntOp.andi (cmpf .olt (Host.absf x) (broadcastInDim s ![] bc (constant (F := Ideal) S_ .f32 0x7F800000#32)))
      (constantI S_ 1 1#1) hr h_S_ ValueIdx.ix0 = 1#1)
    (i : s.Idx) : ∃ r : ℝ, x i = (r : EReal) :=
  real_of_abs_lt_inf (x i) (Host.reduce_andi_all _ _ hr h_S_ ValueIdx.ix0 h i)

/-- The whole precondition: all seven argument arrays hold reals. -/
theorem reals_of_pre (x0 x1 : FVec Ideal S4096x4096 .f32) (x2 : FVec Ideal S4096x512 .f32) (x3 : FVec Ideal S512x512 .f32)
    (x4 : FVec Ideal S512 .f32) (x5 : FVec Ideal S512x512 .f32) (x6 : FVec Ideal S512 .f32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ValueIdx.ix0
  dsimp only [fn, fn_part1] at h0
  simp only [andi, IntOp.andi_eq_one] at h0
  obtain ⟨⟨⟨⟨⟨⟨e0, e1⟩, e2⟩, e3⟩, e4⟩, e5⟩, e6⟩ := h0
  exact ⟨entries_real _ _ x0 e0, entries_real _ _ x1 e1, entries_real _ _ x2 e2, entries_real _ _ x3 e3,
    entries_real _ _ x4 e4, entries_real _ _ x5 e5, entries_real _ _ x6 e6⟩

end Cert.Gcn

end
-- ==== Proof.KernelDots.lean ====
/-
  The idealized kernel's two matrix products, read at an entry.

  On the extended reals a matrix product into a zero accumulator, at row p and column q, is the plain sum over the
  contracted coordinate l of (left operand at (p, l)) · (right operand at (l, q)): no rounding, no order. Stated once for
  each of the kernel's two shapes of product — features [4096, 512] times transposed weights [512, 512], and an
  adjacency row block [512, 4096] times a feature product [4096, 512].
-/
import proofs.«136575_g52785148068368_cont_9to1_m_57_11_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ### The [4096, 512] × [512, 512] product -/

/-- The left operand's index at output entry (p, q) and contraction coordinate l is (p, l). -/
theorem lhsIdx_feat (p : Fin 4096) (q : Fin 512) (l : Fin 512) :
    dot_S4096x512_S512x512_S4096x512_1_0_0_1_n_n.lhsIdx (ix2 p q) ((contrEquiv1 dot_S4096x512_S512x512_S4096x512_1_0_0_1_n_n 512 rfl rfl).symm l) = ix2 p l := by
  have hk := contrEquiv1_symm_val dot_S4096x512_S512x512_S4096x512_1_0_0_1_n_n 512 rfl rfl l
  funext a; apply Fin.ext
  match a with
  | ⟨0, _⟩ =>
    show (dot_S4096x512_S512x512_S4096x512_1_0_0_1_n_n.lhsIdx (ix2 p q) ((contrEquiv1 dot_S4096x512_S512x512_S4096x512_1_0_0_1_n_n 512 rfl rfl).symm l) 0).val = p.val
    unfold DotDims.lhsIdx
    rw [dif_neg (show ¬(0 : Fin S4096x512.rank) ∈ dot_S4096x512_S512x512_S4096x512_1_0_0_1_n_n.lhsBatch by decide),
      dif_pos (show (0 : Fin S4096x512.rank) ∈ dot_S4096x512_S512x512_S4096x512_1_0_0_1_n_n.lhsNonContracting by decide)]
    rfl
  | ⟨1, _⟩ => exact (dot_S4096x512_S512x512_S4096x512_1_0_0_1_n_n.lhsIdx_val_of_single rfl (ix2 p q) _).trans hk

/-- The right operand's index there is (l, q). -/
theorem rhsIdx_feat (p : Fin 4096) (q : Fin 512) (l : Fin 512) :
    dot_S4096x512_S512x512_S4096x512_1_0_0_1_n_n.rhsIdx (ix2 p q) ((contrEquiv1 dot_S4096x512_S512x512_S4096x512_1_0_0_1_n_n 512 rfl rfl).symm l) = ix2 l q := by
  have hk := contrEquiv1_symm_val dot_S4096x512_S512x512_S4096x512_1_0_0_1_n_n 512 rfl rfl l
  funext a; apply Fin.ext
  match a with
  | ⟨0, _⟩ => exact (dot_S4096x512_S512x512_S4096x512_1_0_0_1_n_n.rhsIdx_val_of_single rfl (ix2 p q) _).trans hk
  | ⟨1, _⟩ =>
    show (dot_S4096x512_S512x512_S4096x512_1_0_0_1_n_n.rhsIdx (ix2 p q) ((contrEquiv1 dot_S4096x512_S512x512_S4096x512_1_0_0_1_n_n 512 rfl rfl).symm l) 1).val = q.val
    unfold DotDims.rhsIdx
    rw [dif_neg (show ¬(1 : Fin S512x512.rank) ∈ dot_S4096x512_S512x512_S4096x512_1_0_0_1_n_n.rhsBatch by decide),
      dif_pos (show (1 : Fin S512x512.rank) ∈ dot_S4096x512_S512x512_S4096x512_1_0_0_1_n_n.rhsNonContracting by decide)]
    rfl

/-- The product accumulated into the zero matrix, at entry (p, q): the sum over l of left (p, l) times right (l, q). -/
theorem matmul_feat_apply {φ₁ φ₂ : FTy} (lhs : FVec Ideal S4096x512 φ₁) (rhs : FVec Ideal S512x512 φ₂) (p : Fin 4096) (q : Fin 512) :
    FloatOps.matmul dot_S4096x512_S512x512_S4096x512_1_0_0_1_n_n none lhs rhs (constant (F := Ideal) (⟨2, ![4096, 512]⟩ : Shape) .f32 0x00000000#32) (ix2 p q)
      = ∑ l : Fin 512, lhs (ix2 p l) * rhs (ix2 l q) := by
  refine (Ideal.matmul_constant_zero_apply dot_S4096x512_S512x512_S4096x512_1_0_0_1_n_n none lhs rhs (ix2 p q)).trans ?_
  rw [← Equiv.sum_comp (contrEquiv1 dot_S4096x512_S512x512_S4096x512_1_0_0_1_n_n 512 rfl rfl).symm]
  exact Finset.sum_congr rfl fun l _ => by rw [lhsIdx_feat p q l, rhsIdx_feat p q l]

/-! ### The [512, 4096] × [4096, 512] product -/

/-- The left operand's index at output entry (p, q) and contraction coordinate l is (p, l). -/
theorem lhsIdx_adj (p : Fin 512) (q : Fin 512) (l : Fin 4096) :
    dot_S512x4096_S4096x512_S512x512_1_0_0_1_n_n.lhsIdx (ix2 p q) ((contrEquiv1 dot_S512x4096_S4096x512_S512x512_1_0_0_1_n_n 4096 rfl rfl).symm l) = ix2 p l := by
  have hk := contrEquiv1_symm_val dot_S512x4096_S4096x512_S512x512_1_0_0_1_n_n 4096 rfl rfl l
  funext a; apply Fin.ext
  match a with
  | ⟨0, _⟩ =>
    show (dot_S512x4096_S4096x512_S512x512_1_0_0_1_n_n.lhsIdx (ix2 p q) ((contrEquiv1 dot_S512x4096_S4096x512_S512x512_1_0_0_1_n_n 4096 rfl rfl).symm l) 0).val = p.val
    unfold DotDims.lhsIdx
    rw [dif_neg (show ¬(0 : Fin S512x4096.rank) ∈ dot_S512x4096_S4096x512_S512x512_1_0_0_1_n_n.lhsBatch by decide),
      dif_pos (show (0 : Fin S512x4096.rank) ∈ dot_S512x4096_S4096x512_S512x512_1_0_0_1_n_n.lhsNonContracting by decide)]
    rfl
  | ⟨1, _⟩ => exact (dot_S512x4096_S4096x512_S512x512_1_0_0_1_n_n.lhsIdx_val_of_single rfl (ix2 p q) _).trans hk

/-- The right operand's index there is (l, q). -/
theorem rhsIdx_adj (p : Fin 512) (q : Fin 512) (l : Fin 4096) :
    dot_S512x4096_S4096x512_S512x512_1_0_0_1_n_n.rhsIdx (ix2 p q) ((contrEquiv1 dot_S512x4096_S4096x512_S512x512_1_0_0_1_n_n 4096 rfl rfl).symm l) = ix2 l q := by
  have hk := contrEquiv1_symm_val dot_S512x4096_S4096x512_S512x512_1_0_0_1_n_n 4096 rfl rfl l
  funext a; apply Fin.ext
  match a with
  | ⟨0, _⟩ => exact (dot_S512x4096_S4096x512_S512x512_1_0_0_1_n_n.rhsIdx_val_of_single rfl (ix2 p q) _).trans hk
  | ⟨1, _⟩ =>
    show (dot_S512x4096_S4096x512_S512x512_1_0_0_1_n_n.rhsIdx (ix2 p q) ((contrEquiv1 dot_S512x4096_S4096x512_S512x512_1_0_0_1_n_n 4096 rfl rfl).symm l) 1).val = q.val
    unfold DotDims.rhsIdx
    rw [dif_neg (show ¬(1 : Fin S4096x512.rank) ∈ dot_S512x4096_S4096x512_S512x512_1_0_0_1_n_n.rhsBatch by decide),
      dif_pos (show (1 : Fin S4096x512.rank) ∈ dot_S512x4096_S4096x512_S512x512_1_0_0_1_n_n.rhsNonContracting by decide)]
    rfl

/-- The product accumulated into the zero matrix, at entry (p, q): the sum over l of left (p, l) times right (l, q). -/
theorem matmul_adj_apply {φ₁ φ₂ : FTy} (lhs : FVec Ideal S512x4096 φ₁) (rhs : FVec Ideal S4096x512 φ₂) (p : Fin 512) (q : Fin 512) :
    FloatOps.matmul dot_S512x4096_S4096x512_S512x512_1_0_0_1_n_n none lhs rhs (constant (F := Ideal) (⟨2, ![512, 512]⟩ : Shape) .f32 0x00000000#32) (ix2 p q)
      = ∑ l : Fin 4096, lhs (ix2 p l) * rhs (ix2 l q) := by
  refine (Ideal.matmul_constant_zero_apply dot_S512x4096_S4096x512_S512x512_1_0_0_1_n_n none lhs rhs (ix2 p q)).trans ?_
  rw [← Equiv.sum_comp (contrEquiv1 dot_S512x4096_S4096x512_S512x512_1_0_0_1_n_n 4096 rfl rfl).symm]
  exact Finset.sum_congr rfl fun l _ => by rw [lhsIdx_adj p q l, rhsIdx_adj p q l]

end Cert.KernelIdeal.Dots

end
-- ==== Proof.Payloads.lean ====
/-
  What the two kernel bodies compute, at an entry, on the extended reals.

  First body, from the features F and the two transposed weight matrices T1, T2 (a change of float format is the
  identity on the extended reals, and a cast of a shape to itself changes nothing):
    second output (p, q) = Σ_l F(p, l) · T1(l, q)
    first output  (p, q) = Σ_l F(p, l) · T1(l, q) + Σ_l (F(p, l) · F(p, l)) · T2(l, q).
  Second body, from a row block A, B of each adjacency matrix, the two feature products X1, X2 and the bias row b:
    output (p, q) = (Σ_k A(p, k) · X1(k, q) + Σ_k B(p, k) · X2(k, q)) + b(0, q).
-/
import proofs.«136575_g52785148068368_cont_9to1_m_57_11_alg».proof.Proof.Gen.KernelIdeal.Skeleton
import proofs.«136575_g52785148068368_cont_9to1_m_57_11_alg».proof.Proof.KernelDots
import Idealize.ShloMosaic.Lib.Pipeline.Value

noncomputable section

namespace Cert.KernelIdeal.Payloads

open Cert.KernelIdeal Cert.KernelIdeal.Gen Cert.KernelIdeal.Dots Idealize.ShloMosaic Idealize.ShloMosaic.ValueIdx

/-- The features times the transposed first weights. -/
theorem pay1_apply (x0 : Vec Ideal S4096x512 .f32) (x1 : Vec Ideal S512x512 .f32) (p : Fin 4096) (q : Fin 512) :
    k0_pay1 x0 x1 (ix2 p q) = ∑ l : Fin 512, x0 (ix2 p l) * x1 (ix2 l q) := by
  unfold k0_pay1
  rw [shapeCast_self]
  exact matmul_feat_apply _ _ p q

/-- The first body's second output: the same product, its float format changed. -/
theorem pay2_apply (x0 : Vec Ideal S4096x512 .f32) (x1 : Vec Ideal S512x512 .f32) (p : Fin 4096) (q : Fin 512) :
    k0_pay2 x0 x1 (ix2 p q) = ∑ l : Fin 512, x0 (ix2 p l) * x1 (ix2 l q) :=
  pay1_apply x0 x1 p q

/-- The first body's first output: that product plus the squared features times the transposed second weights. -/
theorem pay3_apply (x0 : Vec Ideal S4096x512 .f32) (x1 x2 : Vec Ideal S512x512 .f32) (p : Fin 4096) (q : Fin 512) :
    k0_pay3 x0 x1 x2 (ix2 p q)
      = (∑ l : Fin 512, x0 (ix2 p l) * x1 (ix2 l q)) + ∑ l : Fin 512, (x0 (ix2 p l) * x0 (ix2 p l)) * x2 (ix2 l q) := by
  unfold k0_pay3
  rw [shapeCast_self]
  refine congrArg₂ (· + ·) (pay1_apply x0 x1 p q) ?_
  exact matmul_feat_apply _ _ p q

/-- The second body's output. -/
theorem pay_out_apply (v0 v2 : Vec Ideal S512x4096 .f32) (v4 v7 : Vec Ideal S4096x512 .bf16) (v11 : Vec Ideal S1x512 .f32)
    (p : Fin 512) (q : Fin 512) :
    k1_pay1 v0 v2 v4 v7 v11 (ix2 p q)
      = (∑ k : Fin 4096, v0 (ix2 p k) * v4 (ix2 k q) + ∑ k : Fin 4096, v2 (ix2 p k) * v7 (ix2 k q)) + v11 (ix2 (0 : Fin 1) q) := by
  unfold k1_pay1
  rw [shapeCast_self, shapeCast_self, shapeCast_self, shapeCast_self]
  refine congrArg₂ (· + ·) (congrArg₂ (· + ·) (matmul_adj_apply _ _ p q) (matmul_adj_apply _ _ p q)) ?_
  exact broadcastTo_apply v11 _ (ix2 p q) (ix2 (0 : Fin 1) q) (fun a => by
    match a with
    | ⟨0, _⟩ => rfl
    | ⟨1, _⟩ => rfl)

end Cert.KernelIdeal.Payloads

end
-- ==== Proof.Entries.lean ====
/-
  A matrix given by its entries: the array whose value at the index (p, q) is G p q.
-/
import Idealize.ShloMosaic.Lib.ValueIdx

noncomputable section

namespace Cert.Gcn

open Idealize.ShloMosaic Idealize.ShloMosaic.ValueIdx

/-- The rank-2 array with entry `G p q` at row p and column q. -/
def ofEntries {a b : Nat} (G : Fin a → Fin b → EReal) : (⟨2, ![a, b]⟩ : Shape).Idx → EReal :=
  fun i => G ⟨(i 0).val, idx2_lt0 i⟩ ⟨(i 1).val, idx2_lt1 i⟩

theorem ofEntries_ix2 {a b : Nat} (G : Fin a → Fin b → EReal) (p : Fin a) (q : Fin b) : ofEntries G (ix2 p q) = G p q := rfl

end Cert.Gcn

end
-- ==== Proof.Region0.lean ====
/-
  The first kernel region: its two output arrays as functions of the arrays it finds.

  The region has no grid: one point, every window's block the whole array (block index 0 on both axes, so a block's
  coordinate is the array's). The body's stores cover each output block, so after the single write-back the second output
  array is the product of the features with the first transposed weights, and the first output array is that product plus
  the product of the squared features with the second transposed weights, entry by entry.
-/
import proofs.«136575_g52785148068368_cont_9to1_m_57_11_alg».proof.Proof.Gen.KernelIdeal.Frame
import proofs.«136575_g52785148068368_cont_9to1_m_57_11_alg».proof.Proof.Payloads
import proofs.«136575_g52785148068368_cont_9to1_m_57_11_alg».proof.Proof.Entries
import Idealize.ShloMosaic.Lib.Pipeline.Value

set_option maxRecDepth 16384

noncomputable section

namespace Cert.KernelIdeal.Region0

open Cert.KernelIdeal Cert.KernelIdeal.Gen Cert.KernelIdeal.Payloads Cert.Gcn
open Idealize.ShloMosaic Idealize.ShloMosaic.TcCoe Idealize.SL.Sem Idealize.ShloMosaic.ValueIdx
open Idealize.ShloMosaic.Pipeline (Dat)

/-- The features times transposed weights: entry (p, q) is Σ_l F(p, l) · T(l, q). -/
def featProd (F : S4096x512.Idx → EReal) (T : S512x512.Idx → EReal) : S4096x512.Idx → EReal :=
  ofEntries fun (p : Fin 4096) (q : Fin 512) => ∑ l : Fin 512, F (ix2 p l) * T (ix2 l q)

/-- That product plus the squared features times the second transposed weights. -/
def featProdSq (F : S4096x512.Idx → EReal) (T1 T2 : S512x512.Idx → EReal) : S4096x512.Idx → EReal :=
  ofEntries fun (p : Fin 4096) (q : Fin 512) =>
    (∑ l : Fin 512, F (ix2 p l) * T1 (ix2 l q)) + ∑ l : Fin 512, (F (ix2 p l) * F (ix2 p l)) * T2 (ix2 l q)

variable (V : (c : Dev nD) → (b : Ref sig .tc) → Buf (Elt Ideal) ((c : Thread nD τ).loc b))

theorem hz : (![0, 0] : Fin 2 → Nat) = fun _ => 0 := funext fun a => by fin_cases a <;> rfl

/-- At the region's one point every window's block index is 0 on both axes (decided over the grid). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The features' block is the features' array. -/
theorem blk_feat (c : Dev nD) (t : Fin cfg0.N) (y : S4096x512.Idx) : iblk0 V c 0 t y = V c main_arg2 y := by
  obtain ⟨e0, e1, -⟩ := idx_facts t
  show V c main_arg2 (((cfg0.win 0).blk t).view.emb y) = V c main_arg2 y
  refine congrArg _ (funext fun a => Fin.ext ?_)
  match a with
  | ⟨0, _⟩ => show win0_0.index t (0 : Fin 2) * 4096 + 1 * (y 0).val = (y 0).val; omega
  | ⟨1, _⟩ => show win0_0.index t (1 : Fin 2) * 512 + 1 * (y 1).val = (y 1).val; omega

/-- The first transposed weights' block is their array. -/
theorem blk_t1 (c : Dev nD) (t : Fin cfg0.N) (y : S512x512.Idx) : iblk0 V c 1 t y = V c main_v2 y := by
  obtain ⟨-, -, e0, e1, -⟩ := idx_facts t
  show V c main_v2 (((cfg0.win 1).blk t).view.emb y) = V c main_v2 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The second transposed weights' block is their array. -/
theorem blk_t2 (c : Dev nD) (t : Fin cfg0.N) (y : S512x512.Idx) : iblk0 V c 2 t y = V c main_v3 y := by
  obtain ⟨-, -, -, -, e0, e1, -⟩ := idx_facts t
  show V c main_v3 (((cfg0.win 2).blk t).view.emb y) = V c main_v3 y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- An output block's coordinate is the array's (first output). -/
theorem emb_out3 (t : Fin cfg0.N) (j : S4096x512.Idx) : ((cfg0.win 3).blk t).view.emb j = j := by
  obtain ⟨-, -, -, -, -, -, e0, e1, -⟩ := idx_facts t
  funext a; apply Fin.ext
  match a with
  | ⟨0, _⟩ => show win0_3.index t (0 : Fin 2) * 4096 + 1 * (j 0).val = (j 0).val; omega
  | ⟨1, _⟩ => show win0_3.index t (1 : Fin 2) * 512 + 1 * (j 1).val = (j 1).val; omega

/-- An output block's coordinate is the array's (second output). -/
theorem emb_out4 (t : Fin cfg0.N) (j : S4096x512.Idx) : ((cfg0.win 4).blk t).view.emb j = j := by
  obtain ⟨-, -, -, -, -, -, -, -, e0, e1⟩ := idx_facts t
  funext a; apply Fin.ext
  match a with
  | ⟨0, _⟩ => show win0_4.index t (0 : Fin 2) * 4096 + 1 * (j 0).val = (j 0).val; omega
  | ⟨1, _⟩ => show win0_4.index t (1 : Fin 2) * 512 + 1 * (j 1).val = (j 1).val; omega

/-- What the point writes back to the second output is the block of the features' product with the first weights. -/
theorem flushed4_eq (c : Dev nD) (t : Fin cfg0.N) :
    (dat0 V c).flushed 4 t = ((cfg0.win 4).blk t).view.read (Elt Ideal) (featProd (V c main_arg2) (V c main_v2)) := by
  show (cfg0.win 4).cut (grid0.coords t) ((dat0 V c).after 4 t) = _
  rw [after0_4]
  unfold out0_4
  rw [View.canon_unit_zero hz]
  simp only [View.ld_unit_zero (S := S4096x512) hz, View.ld_unit_zero (S := S512x512) hz]
  funext j
  revert j
  show ∀ j : S4096x512.Idx, k0_pay2 (iblk0 V c 0 t) (iblk0 V c 1 t) j
    = featProd (V c main_arg2) (V c main_v2) (((cfg0.win 4).blk t).view.emb j)
  intro j
  rw [emb_out4 t j]
  obtain ⟨p, q, rfl⟩ : ∃ (p : Fin 4096) (q : Fin 512), j = ix2 p q := ⟨j 0, j 1, eq_ix2 j⟩
  refine (pay2_apply _ _ p q).trans ?_
  unfold featProd
  rw [ofEntries_ix2]
  exact Finset.sum_congr rfl fun l _ => by rw [blk_feat V c t, blk_t1 V c t]

/-- What the point writes back to the first output is the block of the sum of the two products. -/
theorem flushed3_eq (c : Dev nD) (t : Fin cfg0.N) :
    (dat0 V c).flushed 3 t
      = ((cfg0.win 3).blk t).view.read (Elt Ideal) (featProdSq (V c main_arg2) (V c main_v2) (V c main_v3)) := by
  show (cfg0.win 3).cut (grid0.coords t) ((dat0 V c).after 3 t) = _
  rw [after0_3]
  unfold out0_3
  rw [View.canon_unit_zero hz]
  simp only [View.ld_unit_zero (S := S4096x512) hz, View.ld_unit_zero (S := S512x512) hz]
  funext j
  revert j
  show ∀ j : S4096x512.Idx, k0_pay3 (iblk0 V c 0 t) (iblk0 V c 1 t) (iblk0 V c 2 t) j
    = featProdSq (V c main_arg2) (V c main_v2) (V c main_v3) (((cfg0.win 3).blk t).view.emb j)
  intro j
  rw [emb_out3 t j]
  obtain ⟨p, q, rfl⟩ : ∃ (p : Fin 4096) (q : Fin 512), j = ix2 p q := ⟨j 0, j 1, eq_ix2 j⟩
  refine (pay3_apply _ _ _ p q).trans ?_
  unfold featProdSq
  rw [ofEntries_ix2]
  refine congrArg₂ (· + ·) (Finset.sum_congr rfl fun l _ => by rw [blk_feat V c t, blk_t1 V c t])
    (Finset.sum_congr rfl fun l _ => by rw [blk_feat V c t, blk_t2 V c t])

/-- An index is in the point's block of the first output iff each coordinate is in the block's range. -/
theorem mem_blk3 (t : Fin cfg0.N) (i : S4096x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v4_0).slice (win0_3.rect t)).set ↔ _
  rw [View.set_slice_whole, Rect.mem_set_unit]
  exact Iff.rfl

/-- The same for the second output. -/
theorem mem_blk4 (t : Fin cfg0.N) (i : S4096x512.Idx) :
    i ∈ ((cfg0.win 4).blk t).view.set ↔ ∀ a : Fin 2, win0_4.index t a * S4096x512.size a ≤ (i a).val
      ∧ (i a).val < win0_4.index t a * S4096x512.size a + S4096x512.size a := by
  show i ∈ ((View.whole main_v4_1).slice (win0_4.rect t)).set ↔ _
  rw [View.set_slice_whole, Rect.mem_set_unit]
  exact Iff.rfl

/-- The region's one point. -/
def pt : Fin cfg0.N := ⟨0, by decide⟩

/-- THE FIRST OUTPUT ARRAY after the region: the sum of the two products, of the arrays the region finds. -/
theorem final3 (c : Dev nD) :
    (dat0 V c).arrAt 3 cfg0.N = featProdSq (V c main_arg2) (V c main_v2) (V c main_v3) :=
  (dat0 V c).arrAt_eq_of_cover 3 _ (fun t _ => flushed3_eq V c t) (fun i => ⟨pt, flush0_3 pt, by
    obtain ⟨-, -, -, -, -, -, e0, e1, -⟩ := idx_facts pt
    rw [mem_blk3]
    intro a
    match a with
    | ⟨0, _⟩ =>
      show win0_3.index pt (0 : Fin 2) * 4096 ≤ (i 0).val ∧ (i 0).val < win0_3.index pt (0 : Fin 2) * 4096 + 4096
      have := idx2_lt0 i; omega
    | ⟨1, _⟩ =>
      show win0_3.index pt (1 : Fin 2) * 512 ≤ (i 1).val ∧ (i 1).val < win0_3.index pt (1 : Fin 2) * 512 + 512
      have := idx2_lt1 i; omega⟩)

/-- THE SECOND OUTPUT ARRAY after the region: the features' product with the first transposed weights. -/
theorem final4 (c : Dev nD) :
    (dat0 V c).arrAt 4 cfg0.N = featProd (V c main_arg2) (V c main_v2) :=
  (dat0 V c).arrAt_eq_of_cover 4 _ (fun t _ => flushed4_eq V c t) (fun i => ⟨pt, flush0_4 pt, by
    obtain ⟨-, -, -, -, -, -, -, -, e0, e1⟩ := idx_facts pt
    rw [mem_blk4]
    intro a
    match a with
    | ⟨0, _⟩ =>
      show win0_4.index pt (0 : Fin 2) * 4096 ≤ (i 0).val ∧ (i 0).val < win0_4.index pt (0 : Fin 2) * 4096 + 4096
      have := idx2_lt0 i; omega
    | ⟨1, _⟩ =>
      show win0_4.index pt (1 : Fin 2) * 512 ≤ (i 1).val ∧ (i 1).val < win0_4.index pt (1 : Fin 2) * 512 + 512
      have := idx2_lt1 i; omega⟩)

end Cert.KernelIdeal.Region0

end
-- ==== Proof.Region1.lean ====
/-
  The second kernel region: its output array as a function of the arrays it finds.

  The grid has 8 points. At point t the two adjacency windows hold rows 512·t … 512·t + 511 of their matrices (block index
  (t, 0)), the two feature products and the bias row are whole (block index (0, 0)), and the output window is rows
  512·t … 512·t + 511 of the result. Row p of the block is row 512·t + p of the array, so what point t writes back is that
  row block of ONE function of the arrays: entry (r, q) is Σ_k lap(r, k)·X1(k, q) + Σ_k loop(r, k)·X2(k, q) + bias(0, q).
  The 8 blocks tile the result (row r is in block r / 512), so the array ends holding that function.
-/
import proofs.«136575_g52785148068368_cont_9to1_m_57_11_alg».proof.Proof.Gen.KernelIdeal.Frame
import proofs.«136575_g52785148068368_cont_9to1_m_57_11_alg».proof.Proof.Payloads
import proofs.«136575_g52785148068368_cont_9to1_m_57_11_alg».proof.Proof.Entries
import Idealize.ShloMosaic.Lib.Pipeline.Value

set_option maxRecDepth 16384

noncomputable section

namespace Cert.KernelIdeal.Region1

open Cert.KernelIdeal Cert.KernelIdeal.Gen Cert.KernelIdeal.Payloads Cert.Gcn
open Idealize.ShloMosaic Idealize.ShloMosaic.TcCoe Idealize.SL.Sem Idealize.ShloMosaic.ValueIdx
open Idealize.ShloMosaic.Pipeline (Dat)

/-- The layer's output from the adjacency matrices, the two feature products and the bias row. -/
def layerOut (lap loop : S4096x4096.Idx → EReal) (X1 X2 : S4096x512.Idx → EReal) (bias : S1x512.Idx → EReal) :
    S4096x512.Idx → EReal :=
  ofEntries fun (r : Fin 4096) (q : Fin 512) =>
    (∑ k : Fin 4096, lap (ix2 r k) * X1 (ix2 k q) + ∑ k : Fin 4096, loop (ix2 r k) * X2 (ix2 k q)) + bias (ix2 (0 : Fin 1) q)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 8 points: the adjacency windows and the output move with the point along
    rows, the other windows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 8 :=
  (by decide +kernel : ∀ t : Fin grid1.N, _)

/-- Every row block of the result is some point's. -/
theorem idx_onto : ∀ q0 : Fin 8, ∃ t : Fin cfg1.N, t.val = q0.val :=
  (by decide +kernel : ∀ q0 : Fin 8, ∃ t : Fin grid1.N, t.val = q0.val)

/-- Row p of the first adjacency window's block at point t is row 512·t + p of the matrix. -/
theorem blk_lap (c : Dev nD) (t : Fin cfg1.N) (p : Fin 512) (k : Fin 4096) (h : t.val * 512 + p.val < 4096) :
    iblk1 V c 0 t (ix2 p k) = V c main_arg0 (ix2 ⟨t.val * 512 + p.val, h⟩ k) := by
  obtain ⟨e0, e1, -⟩ := idx_facts t
  show V c main_arg0 (((cfg1.win 0).blk t).view.emb (ix2 p k)) = _
  refine congrArg _ (funext fun a => Fin.ext ?_)
  match a with
  | ⟨0, _⟩ => show win1_0.index t (0 : Fin 2) * 512 + 1 * p.val = t.val * 512 + p.val; omega
  | ⟨1, _⟩ => show win1_0.index t (1 : Fin 2) * 4096 + 1 * k.val = k.val; omega

/-- The same for the second adjacency matrix. -/
theorem blk_loop (c : Dev nD) (t : Fin cfg1.N) (p : Fin 512) (k : Fin 4096) (h : t.val * 512 + p.val < 4096) :
    iblk1 V c 1 t (ix2 p k) = V c main_arg1 (ix2 ⟨t.val * 512 + p.val, h⟩ k) := by
  obtain ⟨-, -, e0, e1, -⟩ := idx_facts t
  show V c main_arg1 (((cfg1.win 1).blk t).view.emb (ix2 p k)) = _
  refine congrArg _ (funext fun a => Fin.ext ?_)
  match a with
  | ⟨0, _⟩ => show win1_1.index t (0 : Fin 2) * 512 + 1 * p.val = t.val * 512 + p.val; omega
  | ⟨1, _⟩ => show win1_1.index t (1 : Fin 2) * 4096 + 1 * k.val = k.val; omega

/-- The first feature product's block is its array. -/
theorem blk_x1 (c : Dev nD) (t : Fin cfg1.N) (y : S4096x512.Idx) : iblk1 V c 2 t y = V c main_v4_0 y := by
  obtain ⟨-, -, -, -, e0, e1, -⟩ := idx_facts t
  show V c main_v4_0 (((cfg1.win 2).blk t).view.emb y) = V c main_v4_0 y
  refine congrArg _ (funext fun a => Fin.ext ?_)
  match a with
  | ⟨0, _⟩ => show win1_2.index t (0 : Fin 2) * 4096 + 1 * (y 0).val = (y 0).val; omega
  | ⟨1, _⟩ => show win1_2.index t (1 : Fin 2) * 512 + 1 * (y 1).val = (y 1).val; omega

/-- The second feature product's block is its array. -/
theorem blk_x2 (c : Dev nD) (t : Fin cfg1.N) (y : S4096x512.Idx) : iblk1 V c 3 t y = V c main_v4_1 y := by
  obtain ⟨-, -, -, -, -, -, e0, e1, -⟩ := idx_facts t
  show V c main_v4_1 (((cfg1.win 3).blk t).view.emb y) = V c main_v4_1 y
  refine congrArg _ (funext fun a => Fin.ext ?_)
  match a with
  | ⟨0, _⟩ => show win1_3.index t (0 : Fin 2) * 4096 + 1 * (y 0).val = (y 0).val; omega
  | ⟨1, _⟩ => show win1_3.index t (1 : Fin 2) * 512 + 1 * (y 1).val = (y 1).val; omega

/-- The bias row's block is its array. -/
theorem blk_bias (c : Dev nD) (t : Fin cfg1.N) (y : S1x512.Idx) : iblk1 V c 4 t y = V c main_v1 y := by
  obtain ⟨-, -, -, -, -, -, -, -, e0, e1, -⟩ := idx_facts t
  show V c main_v1 (((cfg1.win 4).blk t).view.emb y) = V c main_v1 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- Entry (p, q) of the output block at point t is entry (512·t + p, q) of the result. -/
theorem emb_out (t : Fin cfg1.N) (p q : Fin 512) (h : t.val * 512 + p.val < 4096) :
    ((cfg1.win 5).blk t).view.emb (ix2 p q) = ix2 (⟨t.val * 512 + p.val, h⟩ : Fin 4096) q := by
  obtain ⟨-, -, -, -, -, -, -, -, -, -, e0, e1, -⟩ := idx_facts t
  funext a; apply Fin.ext
  match a with
  | ⟨0, _⟩ => show win1_5.index t (0 : Fin 2) * 512 + 1 * p.val = t.val * 512 + p.val; omega
  | ⟨1, _⟩ => show win1_5.index t (1 : Fin 2) * 512 + 1 * q.val = q.val; omega

/-- What point t writes back is its row block of the layer's output of the arrays the region finds. -/
theorem flushed5_eq (c : Dev nD) (t : Fin cfg1.N) :
    (dat1 V c).flushed 5 t = ((cfg1.win 5).blk t).view.read (Elt Ideal)
      (layerOut (V c main_arg0) (V c main_arg1) (V c main_v4_0) (V c main_v4_1) (V c main_v1)) := by
  show (cfg1.win 5).cut (grid1.coords t) ((dat1 V c).after 5 t) = _
  rw [after1_5]
  unfold out1_5
  rw [View.canon_unit_zero hz]
  simp only [View.ld_unit_zero (S := S512x4096) hz, View.ld_unit_zero (S := S4096x512) hz, View.ld_unit_zero (S := S1x512) hz]
  funext j
  revert j
  show ∀ j : S512x512.Idx, k1_pay1 (iblk1 V c 0 t) (iblk1 V c 1 t) (iblk1 V c 2 t) (iblk1 V c 3 t) (iblk1 V c 4 t) j
    = layerOut (V c main_arg0) (V c main_arg1) (V c main_v4_0) (V c main_v4_1) (V c main_v1) (((cfg1.win 5).blk t).view.emb j)
  intro j
  obtain ⟨p, q, rfl⟩ : ∃ (p : Fin 512) (q : Fin 512), j = ix2 p q := ⟨j 0, j 1, eq_ix2 j⟩
  have ht : t.val * 512 + p.val < 4096 := by
    have h8 : t.val < 8 := (idx_facts t).2.2.2.2.2.2.2.2.2.2.2.2
    have := p.isLt; omega
  rw [emb_out t p q ht]
  refine (pay_out_apply _ _ _ _ _ p q).trans ?_
  unfold layerOut
  rw [ofEntries_ix2]
  refine congrArg₂ (· + ·) (congrArg₂ (· + ·)
    (Finset.sum_congr rfl fun k _ => by rw [blk_lap V c t p k ht, blk_x1 V c t])
    (Finset.sum_congr rfl fun k _ => by rw [blk_loop V c t p k ht, blk_x2 V c t])) (blk_bias V c t _)

/-- An index is in point t's block of the result iff each coordinate is in the block's range. -/
theorem mem_blk5 (t : Fin cfg1.N) (i : S4096x512.Idx) :
    i ∈ ((cfg1.win 5).blk t).view.set ↔ ∀ a : Fin 2, win1_5.index t a * S512x512.size a ≤ (i a).val
      ∧ (i a).val < win1_5.index t a * S512x512.size a + S512x512.size a := by
  show i ∈ ((View.whole main_v5).slice (win1_5.rect t)).set ↔ _
  rw [View.set_slice_whole, Rect.mem_set_unit]
  exact Iff.rfl

/-- THE RESULT ARRAY after the region: the layer's output of the arrays the region finds (the 8 row blocks tile it). -/
theorem final5 (c : Dev nD) :
    (dat1 V c).arrAt 5 cfg1.N = layerOut (V c main_arg0) (V c main_arg1) (V c main_v4_0) (V c main_v4_1) (V c main_v1) :=
  (dat1 V c).arrAt_eq_of_cover 5 _ (fun t _ => flushed5_eq V c t) (fun i => by
    have hi0 : (i 0).val < 4096 := idx2_lt0 i
    have hi1 : (i 1).val < 512 := idx2_lt1 i
    obtain ⟨t, ht⟩ := idx_onto ⟨(i 0).val / 512, by omega⟩
    have ht' : t.val = (i 0).val / 512 := ht
    obtain ⟨-, -, -, -, -, -, -, -, -, -, e0, e1, -⟩ := idx_facts t
    refine ⟨t, flush1_5 t, ?_⟩
    rw [mem_blk5]
    intro a
    match a with
    | ⟨0, _⟩ =>
      show win1_5.index t (0 : Fin 2) * 512 ≤ (i 0).val ∧ (i 0).val < win1_5.index t (0 : Fin 2) * 512 + 512
      omega
    | ⟨1, _⟩ =>
      show win1_5.index t (1 : Fin 2) * 512 ≤ (i 1).val ∧ (i 1).val < win1_5.index t (1 : Fin 2) * 512 + 512
      omega)

end Cert.KernelIdeal.Region1

end
-- ==== Proof.Algebra.lean ====
/-
  The algebra that joins the two programs, with no program in sight.

  A graph-convolution layer on real matrices: with `lap`, `loop` the two adjacency matrices (rows `r`, contraction
  index `k`), `F` the features (`k`, `l`), `W1`, `W2` the two weight matrices (output column `c`, `l`) and
  `b1`, `b2` the two biases,

    "features first"   Σ_k lap(r,k)·(Σ_l F(k,l)·W1(c,l) + Σ_l F(k,l)²·W2(c,l)) + Σ_k loop(r,k)·(Σ_l F(k,l)·W1(c,l)) + (b1(c) + b2(c))
    "adjacency first"  (Σ_l (Σ_k (lap(r,k) + loop(r,k))·F(k,l))·W1(c,l) + b1(c)) + (Σ_l (Σ_k lap(r,k)·F(k,l)²)·W2(c,l) + b2(c))

  are the same number: matrix multiplication is associative ((A·B)·C = A·(B·C), an exchange of the two finite sums)
  and distributes over the sum of matrices. On the extended reals both laws fail at the infinities, so they are proved
  on the reals and carried to extended reals that ARE reals: a finite sum of coerced reals is the coerced sum.
-/
import Mathlib

noncomputable section

namespace Cert.Gcn

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the matrix product at one entry: a row `a` times `G`, then times a column `W`, is the row times
    (`G` times the column) — the two finite sums exchanged. -/
theorem row_assoc {κ μ : Type*} [Fintype κ] [Fintype μ] (a : κ → ℝ) (G : κ → μ → ℝ) (W : μ → ℝ) :
    ∑ l, (∑ k, a k * G k l) * W l = ∑ k, a k * ∑ l, G k l * W l := by
  simp only [Finset.sum_mul, Finset.mul_sum]
  rw [Finset.sum_comm]
  exact Finset.sum_congr rfl fun k _ => Finset.sum_congr rfl fun l _ => mul_assoc _ _ _

/-- The layer's two forms agree on the reals (one output entry: `lap`, `loop` are the entry's rows of the adjacency
    matrices, `W1`, `W2` its rows of the weights, `b1`, `b2` its biases). -/
theorem layer_real {κ μ : Type*} [Fintype κ] [Fintype μ] (lap loop : κ → ℝ) (F : κ → μ → ℝ) (W1 W2 : μ → ℝ) (b1 b2 : ℝ) :
    (∑ k, lap k * (∑ l, F k l * W1 l + ∑ l, (F k l * F k l) * W2 l) + ∑ k, loop k * ∑ l, F k l * W1 l) + (b1 + b2)
      = ((∑ l, (∑ k, (lap k + loop k) * F k l) * W1 l) + b1) + ((∑ l, (∑ k, lap k * (F k l * F k l)) * W2 l) + b2) := by
  rw [row_assoc (fun k => lap k + loop k) F W1, row_assoc lap (fun k l => F k l * F k l) W2]
  simp only [mul_add, add_mul, Finset.sum_add_distrib]
  ring

/-- The "features first" form of one output entry, on the extended reals. -/
def featuresFirst {κ μ : Type*} [Fintype κ] [Fintype μ] (lap loop : κ → EReal) (F : κ → μ → EReal) (W1 W2 : μ → EReal)
    (b1 b2 : EReal) : EReal :=
  (∑ k, lap k * (∑ l, F k l * W1 l + ∑ l, (F k l * F k l) * W2 l) + ∑ k, loop k * ∑ l, F k l * W1 l) + (b1 + b2)

/-- The "adjacency first" form of the same entry. -/
def adjacencyFirst {κ μ : Type*} [Fintype κ] [Fintype μ] (lap loop : κ → EReal) (F : κ → μ → EReal) (W1 W2 : μ → EReal)
    (b1 b2 : EReal) : EReal :=
  ((∑ l, (∑ k, (lap k + loop k) * F k l) * W1 l) + b1) + ((∑ l, (∑ k, lap k * (F k l * F k l)) * W2 l) + b2)

/-- On extended reals that are reals the two forms agree. -/
theorem layer_ereal {κ μ : Type*} [Fintype κ] [Fintype μ] (lap loop : κ → ℝ) (F : κ → μ → ℝ) (W1 W2 : μ → ℝ) (b1 b2 : ℝ) :
    featuresFirst (fun k => (lap k : EReal)) (fun k => (loop k : EReal)) (fun k l => (F k l : EReal))
        (fun l => (W1 l : EReal)) (fun l => (W2 l : EReal)) (b1 : EReal) (b2 : EReal)
      = adjacencyFirst (fun k => (lap k : EReal)) (fun k => (loop k : EReal)) (fun k l => (F k l : EReal))
        (fun l => (W1 l : EReal)) (fun l => (W2 l : EReal)) (b1 : EReal) (b2 : EReal) := by
  unfold featuresFirst adjacencyFirst
  simp only [← EReal.coe_mul, ← EReal.coe_add, ← coe_sum]
  exact congrArg _ (layer_real lap loop F W1 W2 b1 b2)

end Cert.Gcn

end
-- ==== Proof.KernelValue.lean ====
/-
  The idealized kernel's result as ONE function of the argument arrays, and that function at an entry.

  The host stretch leaves the bias row (b1 + b2 reshaped to one row) and the two transposed weight matrices, the arguments
  untouched. The first region finds the features and the transposed weights and leaves the two feature products; the second
  finds the adjacency matrices (untouched by the first region), those two products and the bias row and leaves the
  result. Composing: the result is the layer's output of the adjacency matrices, of the feature products of the features
  with the transposed weights, and of the reshaped bias sum.

  At row r and column c: a transposed matrix at (l, c) is the matrix at (c, l), and the bias row at (0, c) is
  b1(c) + b2(c); so the entry is the "features first" form of the layer.
-/
import proofs.«136575_g52785148068368_cont_9to1_m_57_11_alg».proof.Proof.Region0
import proofs.«136575_g52785148068368_cont_9to1_m_57_11_alg».proof.Proof.Region1
import proofs.«136575_g52785148068368_cont_9to1_m_57_11_alg».proof.Proof.Algebra
import Idealize.ShloMosaic.Lib.StableHlo.Run

set_option maxRecDepth 16384

noncomputable section

namespace Cert.KernelIdeal.KValue

open Cert.KernelIdeal Cert.KernelIdeal.Gen Cert.Gcn
open Idealize.ShloMosaic Idealize.ShloMosaic.TcCoe Idealize.SL.Sem Idealize.ShloMosaic.StableHlo Idealize.ShloMosaic.ValueIdx
open Cert.KernelIdeal.Region0 (featProd featProdSq)
open Cert.KernelIdeal.Region1 (layerOut)

/-! ## What each region finds -/

section Stages
variable {F : FTy → Type} [FloatOps F]
variable (m : (ℓ : Loc nD τ sig) → Buf (Elt F) ℓ) (ρ : Dev nD → PrngReg)

/-- The first region finds the features as launched, -/
theorem entry0_feat (c : Dev nD) : V1 m ρ c main_arg2 = m ((c : Thread nD τ).loc main_arg2) := by
  show StableHlo.after hostOps0 (W0 m ρ c) (Proc.devRef .tc main_arg2) = _
  after_results

/-- the first weights transposed, -/
theorem entry0_t1 (c : Dev nD) :
    V1 m ρ c main_v2 = transpose S512x512 [1, 0] (m ((c : Thread nD τ).loc main_arg3)) transposes_S512x512_S512x512_1_0 := by
  show StableHlo.after hostOps0 (W0 m ρ c) (Proc.devRef .tc main_v2) = _
  after_results

/-- and the second weights transposed. -/
theorem entry0_t2 (c : Dev nD) :
    V1 m ρ c main_v3 = transpose S512x512 [1, 0] (m ((c : Thread nD τ).loc main_arg5)) transposes_S512x512_S512x512_1_0 := by
  show StableHlo.after hostOps0 (W0 m ρ c) (Proc.devRef .tc main_v3) = _
  after_results

/-- The second region finds the first adjacency matrix as launched (the first region does not touch it), -/
theorem entry1_lap (c : Dev nD) : V2 m ρ c main_arg0 = m ((c : Thread nD τ).loc main_arg0) := by
  refine (W2_of_ne m ρ c main_arg0 (by decide)).trans ?_
  show StableHlo.after hostOps0 (W0 m ρ c) (Proc.devRef .tc main_arg0) = _
  after_results

/-- the second likewise, -/
theorem entry1_loop (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results

/-- the bias row the host stretch left: the sum of the two biases, reshaped to one row, -/
theorem entry1_bias (c : Dev nD) :
    V2 m ρ c main_v1 = shapeCast S1x512 (addf (m ((c : Thread nD τ).loc main_arg4)) (m ((c : Thread nD τ).loc main_arg6)))
      shapeCasts_S512_S1x512 := by
  refine (W2_of_ne m ρ c main_v1 (by decide)).trans ?_
  show StableHlo.after hostOps0 (W0 m ρ c) (Proc.devRef .tc main_v1) = _
  after_results
  rfl

/-- and the first region's two output arrays after its write-back. -/
theorem entry1_x1 (c : Dev nD) : V2 m ρ c main_v4_0 = (dat0 (V1 m ρ) c).arrAt 3 cfg0.N := W2_arr m ρ c 3
theorem entry1_x2 (c : Dev nD) : V2 m ρ c main_v4_1 = (dat0 (V1 m ρ) c).arrAt 4 cfg0.N := W2_arr m ρ c 4

end Stages

/-! ## The result as one function of the arguments -/

/-- The kernel's result from the seven argument arrays. -/
def kernelResult (lap loop : S4096x4096.Idx → EReal) (feat : S4096x512.Idx → EReal) (w1 : S512x512.Idx → EReal)
    (b1 : S512.Idx → EReal) (w2 : S512x512.Idx → EReal) (b2 : S512.Idx → EReal) : S4096x512.Idx → EReal :=
  layerOut lap loop
    (featProdSq feat (transpose S512x512 [1, 0] w1 transposes_S512x512_S512x512_1_0)
      (transpose S512x512 [1, 0] w2 transposes_S512x512_S512x512_1_0))
    (featProd feat (transpose S512x512 [1, 0] w1 transposes_S512x512_S512x512_1_0))
    (shapeCast S1x512 (addf (F := Ideal) (φ := .f32) b1 b2) shapeCasts_S512_S1x512)

variable (m : (ℓ : Loc nD τ sig) → Buf (Elt Ideal) ℓ) (ρ : Dev nD → PrngReg)

/-- The second region's output array after its last write-back is that function of the launch contents. -/
theorem result_eq (c : Dev nD) :
    (dat1 (V2 m ρ) c).arrAt 5 cfg1.N
      = kernelResult (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [Region1.final5 (V2 m ρ) c, entry1_lap, entry1_loop, entry1_bias, entry1_x1, entry1_x2,
    Region0.final3 (V1 m ρ) c, Region0.final4 (V1 m ρ) c, entry0_feat, entry0_t1, entry0_t2]
  rfl

/-! ## The function at an entry -/

/-- A transposed square matrix at (l, c) is the matrix at (c, l). -/
theorem transpose_at (w : S512x512.Idx → EReal) (l c : Fin 512) :
    transpose S512x512 [1, 0] w transposes_S512x512_S512x512_1_0 (ix2 l c) = w (ix2 c l) :=
  transpose_apply [1, 0] w transposes_S512x512_S512x512_1_0 (ix2 l c) (ix2 c l) (fun b => match b with
    | ⟨0, _⟩ => rfl
    | ⟨1, _⟩ => rfl)

/-- The bias row at (0, c) is the bias vector at c. -/
theorem row_at (v : S512.Idx → EReal) (c : Fin 512) :
    shapeCast S1x512 v shapeCasts_S512_S1x512 (ix2 (0 : Fin 1) c) = v (ix1 c) := by
  refine (shapeCast_addUnit_apply ![512] v shapeCasts_S512_S1x512 (ix2 (0 : Fin 1) c)).trans (congrArg v ?_)
  funext a
  match a with
  | ⟨0, _⟩ => rfl

/-- The kernel's result at (r, c) is the "features first" form of the layer's entry. -/
theorem kernelResult_apply (lap loop : S4096x4096.Idx → EReal) (feat : S4096x512.Idx → EReal) (w1 : S512x512.Idx → EReal)
    (b1 : S512.Idx → EReal) (w2 : S512x512.Idx → EReal) (b2 : S512.Idx → EReal) (r : Fin 4096) (c : Fin 512) :
    kernelResult lap loop feat w1 b1 w2 b2 (ix2 r c)
      = featuresFirst (fun k : Fin 4096 => lap (ix2 r k)) (fun k : Fin 4096 => loop (ix2 r k))
          (fun (k : Fin 4096) (l : Fin 512) => feat (ix2 k l)) (fun l : Fin 512 => w1 (ix2 c l)) (fun l : Fin 512 => w2 (ix2 c l))
          (b1 (ix1 c)) (b2 (ix1 c)) := by
  unfold kernelResult layerOut featProdSq featProd featuresFirst
  rw [ofEntries_ix2]
  refine congrArg₂ (· + ·) (congrArg₂ (· + ·)
    (Finset.sum_congr rfl fun k _ => congrArg (lap (ix2 r k) * ·) ?_)
    (Finset.sum_congr rfl fun k _ => congrArg (loop (ix2 r k) * ·) ?_)) ?_
  · rw [ofEntries_ix2]
    exact congrArg₂ (· + ·) (Finset.sum_congr rfl fun l _ => by rw [transpose_at])
      (Finset.sum_congr rfl fun l _ => by rw [transpose_at])
  · rw [ofEntries_ix2]
    exact Finset.sum_congr rfl fun l _ => by rw [transpose_at]
  · exact row_at _ c

end Cert.KernelIdeal.KValue

end
-- ==== Proof.RefValue.lean ====
/-
  The reference's result at an entry.

  The reference adds the two adjacency matrices, multiplies the sum with the features and then with the transposed first
  weights and adds the first bias along rows; multiplies the first adjacency matrix with the squared features and then
  with the transposed second weights and adds the second bias; and adds the two. Read at row r and column c, stage by
  stage, that is the "adjacency first" form of the layer: row r of the adjacency matrices, the features, rows c of the two
  weight matrices (a transposed matrix at (l, c) is the matrix at (c, l)), and entries c of the biases (a bias broadcast
  along rows is constant in r).
-/
import proofs.«136575_g52785148068368_cont_9to1_m_57_11_alg».proof.Proof.Gen.ReferenceIdeal.Read
import proofs.«136575_g52785148068368_cont_9to1_m_57_11_alg».proof.Proof.Algebra

noncomputable section

namespace Cert.ReferenceIdeal.RefValue

open Cert.ReferenceIdeal Cert.ReferenceIdeal.Gen Cert.ReferenceIdeal.Read Idealize.ShloMosaic Idealize.ShloMosaic.ValueIdx

/-! ### The stages' index functions at coordinates -/

theorem lidx_v4 (r : Fin 4096) (c : Fin 512) (l : Fin 512) : lidx_main_v4 (ix2 r c) l = ix2 r l :=
  funext fun a => Fin.ext (by match a with | ⟨0, _⟩ => rfl | ⟨1, _⟩ => rfl)
theorem ridx_v4 (r : Fin 4096) (c : Fin 512) (l : Fin 512) : ridx_main_v4 (ix2 r c) l = ix2 l c :=
  funext fun a => Fin.ext (by match a with | ⟨0, _⟩ => rfl | ⟨1, _⟩ => rfl)
theorem lidx_v2 (r : Fin 4096) (l : Fin 512) (k : Fin 4096) : lidx_main_v2 (ix2 r l) k = ix2 r k :=
  funext fun a => Fin.ext (by match a with | ⟨0, _⟩ => rfl | ⟨1, _⟩ => rfl)
theorem ridx_v2 (r : Fin 4096) (l : Fin 512) (k : Fin 4096) : ridx_main_v2 (ix2 r l) k = ix2 k l :=
  funext fun a => Fin.ext (by match a with | ⟨0, _⟩ => rfl | ⟨1, _⟩ => rfl)
theorem idx_v3 (l c : Fin 512) : idx_main_v3 (ix2 l c) = ix2 c l :=
  funext fun a => Fin.ext (by match a with | ⟨0, _⟩ => rfl | ⟨1, _⟩ => rfl)
theorem idx_v6 (r : Fin 4096) (c : Fin 512) : idx_main_v6 (ix2 r c) = ix2 (0 : Fin 1) c :=
  funext fun a => Fin.ext (by match a with | ⟨0, _⟩ => rfl | ⟨1, _⟩ => rfl)
theorem idx_v5 (c : Fin 512) : idx_main_v5 (ix2 (0 : Fin 1) c) = ix1 c :=
  funext fun a => Fin.ext (by match a with | ⟨0, _⟩ => rfl)
theorem lidx_v10 (r : Fin 4096) (c : Fin 512) (l : Fin 512) : lidx_main_v10 (ix2 r c) l = ix2 r l :=
  funext fun a => Fin.ext (by match a with | ⟨0, _⟩ => rfl | ⟨1, _⟩ => rfl)
theorem ridx_v10 (r : Fin 4096) (c : Fin 512) (l : Fin 512) : ridx_main_v10 (ix2 r c) l = ix2 l c :=
  funext fun a => Fin.ext (by match a with | ⟨0, _⟩ => rfl | ⟨1, _⟩ => rfl)
theorem lidx_v8 (r : Fin 4096) (l : Fin 512) (k : Fin 4096) : lidx_main_v8 (ix2 r l) k = ix2 r k :=
  funext fun a => Fin.ext (by match a with | ⟨0, _⟩ => rfl | ⟨1, _⟩ => rfl)
theorem ridx_v8 (r : Fin 4096) (l : Fin 512) (k : Fin 4096) : ridx_main_v8 (ix2 r l) k = ix2 k l :=
  funext fun a => Fin.ext (by match a with | ⟨0, _⟩ => rfl | ⟨1, _⟩ => rfl)
theorem idx_v9 (l c : Fin 512) : idx_main_v9 (ix2 l c) = ix2 c l :=
  funext fun a => Fin.ext (by match a with | ⟨0, _⟩ => rfl | ⟨1, _⟩ => rfl)
theorem idx_v12 (r : Fin 4096) (c : Fin 512) : idx_main_v12 (ix2 r c) = ix2 (0 : Fin 1) c :=
  funext fun a => Fin.ext (by match a with | ⟨0, _⟩ => rfl | ⟨1, _⟩ => rfl)
theorem idx_v11 (c : Fin 512) : idx_main_v11 (ix2 (0 : Fin 1) c) = ix1 c :=
  funext fun a => Fin.ext (by match a with | ⟨0, _⟩ => rfl)

/-! ### The result -/

/-- The reference's result at (r, c) is the "adjacency first" form of the layer's entry. -/
theorem result_apply (x0 x1 : (⟨S4096x4096, .f32⟩ : BufTy).Contents (Elt Ideal)) (x2 : (⟨S4096x512, .f32⟩ : BufTy).Contents (Elt Ideal))
    (x3 : (⟨S512x512, .f32⟩ : BufTy).Contents (Elt Ideal)) (x4 : (⟨S512, .f32⟩ : BufTy).Contents (Elt Ideal))
    (x5 : (⟨S512x512, .f32⟩ : BufTy).Contents (Elt Ideal)) (x6 : (⟨S512, .f32⟩ : BufTy).Contents (Elt Ideal))
    (r : Fin 4096) (c : Fin 512) :
    val_main_v14 (F := Ideal) x0 x1 x2 x3 x4 x5 x6 (ix2 r c)
      = Cert.Gcn.adjacencyFirst (fun k : Fin 4096 => x0 (ix2 r k)) (fun k : Fin 4096 => x1 (ix2 r k))
          (fun (k : Fin 4096) (l : Fin 512) => x2 (ix2 k l)) (fun l : Fin 512 => x3 (ix2 c l)) (fun l : Fin 512 => x5 (ix2 c l))
          (x4 (ix1 c)) (x6 (ix1 c)) := by
  rw [val_main_v14_apply, val_main_v7_apply, val_main_v13_apply, val_main_v4_apply, val_main_v10_apply,
    val_main_v6_apply, val_main_v12_apply, idx_v6, idx_v12, val_main_v5_apply, val_main_v11_apply, idx_v5, idx_v11]
  simp only [lidx_v4, ridx_v4, lidx_v10, ridx_v10, val_main_v2_apply, val_main_v8_apply, val_main_v3_apply,
    val_main_v9_apply, lidx_v2, ridx_v2, lidx_v8, ridx_v8, idx_v3, idx_v9, val_main_v0_apply, val_main_v1_apply,
    Ideal.addf_def, Ideal.mulf_def]
  rfl

end Cert.ReferenceIdeal.RefValue

end
-- ==== Proof.Bridge.lean ====
/-
  The two results are one function of the arguments, when every argument entry is a real.

  At row r and column c the kernel's result is the "features first" form of the layer's entry and the reference's the
  "adjacency first" form, of the same rows of the adjacency matrices, the same features, the same rows of the weights
  and the same bias entries. The forms agree on the reals (associativity of the matrix product and distributivity), and
  the precondition makes every entry a real.
-/
import proofs.«136575_g52785148068368_cont_9to1_m_57_11_alg».proof.Proof.KernelValue
import proofs.«136575_g52785148068368_cont_9to1_m_57_11_alg».proof.Proof.RefValue

noncomputable section

namespace Cert.Gcn

open Idealize.ShloMosaic Idealize.ShloMosaic.ValueIdx

/-- The kernel's result function is the reference's last stage, on arrays of reals. -/
theorem results_agree (x0 x1 : (⟨2, ![4096, 4096]⟩ : Shape).Idx → EReal) (x2 : (⟨2, ![4096, 512]⟩ : Shape).Idx → EReal)
    (x3 : (⟨2, ![512, 512]⟩ : Shape).Idx → EReal) (x4 : (⟨1, ![512]⟩ : Shape).Idx → EReal)
    (x5 : (⟨2, ![512, 512]⟩ : Shape).Idx → EReal) (x6 : (⟨1, ![512]⟩ : Shape).Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) :
    Cert.KernelIdeal.KValue.kernelResult x0 x1 x2 x3 x4 x5 x6
      = Cert.ReferenceIdeal.Read.val_main_v14 (F := Ideal) x0 x1 x2 x3 x4 x5 x6 := by
  funext i
  obtain ⟨r, c, rfl⟩ : ∃ (r : Fin 4096) (c : Fin 512), i = ix2 r c := ⟨i 0, i 1, eq_ix2 i⟩
  rw [Cert.KernelIdeal.KValue.kernelResult_apply, Cert.ReferenceIdeal.RefValue.result_apply]
  choose y0 e0 using h0
  choose y1 e1 using h1
  choose y2 e2 using h2
  choose y3 e3 using h3
  choose y4 e4 using h4
  choose y5 e5 using h5
  choose y6 e6 using h6
  simp only [e0, e1, e2, e3, e4, e5, e6]
  exact layer_ereal (fun k => y0 (ix2 r k)) (fun k => y1 (ix2 r k)) (fun k l => y2 (ix2 k l)) (fun l => y3 (ix2 c l))
    (fun l => y5 (ix2 c l)) (y4 (ix1 c)) (y6 (ix1 c))

end Cert.Gcn

end
-- ==== Proof.lean ====
/-
  A graph-convolution layer: the kernel against its reference, on the extended reals.

  Both programs compute, from two 4096 × 4096 adjacency matrices lap and loop, 4096 × 512 features F, two 512 × 512
  weight matrices W1, W2 and two biases b1, b2,

      out = (lap + loop) · F · W1ᵀ + b1 + lap · (F ∗ F) · W2ᵀ + b2        (F ∗ F the entrywise square).

  The reference multiplies the adjacency matrices with the features first and the weights second. The kernel multiplies
  the features with the weights first — one gridless kernel leaves X2 = F · W1ᵀ and X1 = F · W1ᵀ + (F ∗ F) · W2ᵀ — and
  then, for each of 8 blocks of 512 rows, leaves lap_block · X1 + loop_block · X2 + (b1 + b2). The two agree by
  associativity of the matrix product and distributivity over the sum of matrices — laws that fail at the infinities of
  the extended reals and hold on the reals, which is where the precondition (every input finite) puts every entry.

  The modules: Algebra (the law, on the reals and carried to extended reals that are reals), Finite (the precondition
  read: every entry a real), KernelDots and Payloads (the kernel bodies' arithmetic at an entry), Region0 and Region1
  (each region's output array as a function of the arrays it finds), KernelRun (the kernel's run with the result's
  buffer kept in the postcondition), KernelValue (the result as one function of the arguments, and that function at an
  entry), RefValue (the reference's stages at an entry), Bridge (the two functions are one). The frames of the two
  kernel programs are the generated frame certificates; the reference's frame is its generated run with the result
  dropped; no rewrite was applied in idealizing the kernel, so `preserves` is trivial.
-/
import proofs.«136575_g52785148068368_cont_9to1_m_57_11_alg».proof.Defs
import proofs.«136575_g52785148068368_cont_9to1_m_57_11_alg».proof.Proof.Gen.Kernel
import proofs.«136575_g52785148068368_cont_9to1_m_57_11_alg».proof.Proof.Gen.Kernel.Skeleton
import proofs.«136575_g52785148068368_cont_9to1_m_57_11_alg».proof.Proof.Gen.Kernel.Launch
import proofs.«136575_g52785148068368_cont_9to1_m_57_11_alg».proof.Proof.Gen.Kernel.Points
import proofs.«136575_g52785148068368_cont_9to1_m_57_11_alg».proof.Proof.Gen.Kernel.Frame
import proofs.«136575_g52785148068368_cont_9to1_m_57_11_alg».proof.Proof.Gen.KernelIdeal
import proofs.«136575_g52785148068368_cont_9to1_m_57_11_alg».proof.Proof.Gen.KernelIdeal.Skeleton
import proofs.«136575_g52785148068368_cont_9to1_m_57_11_alg».proof.Proof.Gen.KernelIdeal.Launch
import proofs.«136575_g52785148068368_cont_9to1_m_57_11_alg».proof.Proof.Gen.KernelIdeal.Points
import proofs.«136575_g52785148068368_cont_9to1_m_57_11_alg».proof.Proof.Gen.KernelIdeal.Frame
import proofs.«136575_g52785148068368_cont_9to1_m_57_11_alg».proof.Proof.Gen.ReferenceIdeal
import proofs.«136575_g52785148068368_cont_9to1_m_57_11_alg».proof.Proof.Gen.ReferenceIdeal.Run
import proofs.«136575_g52785148068368_cont_9to1_m_57_11_alg».proof.Proof.Gen.ReferenceIdeal.Read
import proofs.«136575_g52785148068368_cont_9to1_m_57_11_alg».proof.Proof.Gen.Pre_finite_inputs
import proofs.«136575_g52785148068368_cont_9to1_m_57_11_alg».proof.Proof.KernelRun
import proofs.«136575_g52785148068368_cont_9to1_m_57_11_alg».proof.Proof.Finite
import proofs.«136575_g52785148068368_cont_9to1_m_57_11_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame certificate. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- On finite inputs the two idealized programs, run from memories agreeing on the arguments, end with the same result:
    the kernel's run leaves the "features first" function of the arguments, the reference's run the "adjacency first"
    one, and on arrays of reals they are one function. -/
theorem algebraic : Cert.algebraic_KernelIdeal_ReferenceIdeal := by
  intro m ρ m' ρ' hpre hagree
  refine ⟨fun c => Cert.KernelIdeal.KValue.kernelResult
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KValue.result_eq m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, (hagree c).1, (hagree c).2.1, (hagree c).2.2.1, (hagree c).2.2.2.1,
      (hagree c).2.2.2.2.1, (hagree c).2.2.2.2.2.1, (hagree c).2.2.2.2.2.2]
    obtain ⟨h0, h1, h2, h3, h4, h5, h6⟩ := Cert.Gcn.reals_of_pre _ _ _ _ _ _ _ (hpre c)
    exact (Cert.Gcn.results_agree _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
